-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S131072x256 : Shape := ⟨2, ![131072, 256]⟩
abbrev S512 : Shape := ⟨1, ![512]⟩
abbrev S131072 : Shape := ⟨1, ![131072]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_

variable [Facts]

def fn {F : FTy → Type} [FloatOps F] (main_arg0 : FVec F S512x256 .f32) (main_arg1 : FVec F S131072x256 .f32) (main_arg2 : IVec S512 32) (main_arg3 : IVec S512 32) (main_arg4 : IVec S512 32) (main_arg5 : IVec S131072 32) (main_arg6 : IVec S131072 32) (main_arg7 : IVec S131072 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S512x256 : Shape := ⟨2, ![512, 256]⟩
abbrev S131072x256 : Shape := ⟨2, ![131072, 256]⟩
abbrev S512 : Shape := ⟨1, ![512]⟩
abbrev S131072 : Shape := ⟨1, ![131072]⟩
abbrev S_ : Shape := ⟨0, ![]⟩
abbrev S512x1 : Shape := ⟨2, ![512, 1]⟩
abbrev S512x2 : Shape := ⟨2, ![512, 2]⟩
abbrev S131072x1 : Shape := ⟨2, ![131072, 1]⟩
abbrev S131072x2 : Shape := ⟨2, ![131072, 2]⟩
abbrev S1024x256 : Shape := ⟨2, ![1024, 256]⟩
abbrev S1024 : Shape := ⟨1, ![1024]⟩
abbrev S1024x2 : Shape := ⟨2, ![1024, 2]⟩
abbrev S256x1024 : Shape := ⟨2, ![256, 1024]⟩
abbrev S512x1024 : Shape := ⟨2, ![512, 1024]⟩
abbrev S1x1024 : Shape := ⟨2, ![1, 1024]⟩
abbrev S1024x1 : Shape := ⟨2, ![1024, 1]⟩

abbrev nBuf : Space → Nat
  | .hbm => 24
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S131072x256, .f32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S131072, .i32⟩
  | .hbm, ⟨6, _⟩ => ⟨S131072, .i32⟩
  | .hbm, ⟨7, _⟩ => ⟨S131072, .i32⟩
  | .hbm, ⟨8, _⟩ => ⟨S512x256, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S512x256, .f32⟩
  | .hbm, ⟨14, _⟩ => ⟨S512x256, .f32⟩
  | .hbm, ⟨15, _⟩ => ⟨S512x1, .i32⟩
  | .hbm, ⟨16, _⟩ => ⟨S512x1, .i32⟩
  | .hbm, ⟨17, _⟩ => ⟨S512x2, .i32⟩
  | .hbm, ⟨18, _⟩ => ⟨S512x2, .f32⟩
  | .hbm, ⟨19, _⟩ => ⟨S131072x1, .i32⟩
  | .hbm, ⟨20, _⟩ => ⟨S131072x1, .i32⟩
  | .hbm, ⟨21, _⟩ => ⟨S131072x2, .i32⟩
  | .hbm, ⟨22, _⟩ => ⟨S131072x2, .f32⟩
  | .hbm, ⟨23, _⟩ => ⟨S512, .f32⟩
  | .local _ .vmem, ⟨0, _⟩ => ⟨S512x256, .f32⟩
  | .local _ .vmem, ⟨1, _⟩ => ⟨S1024x256, .f32⟩
  | .local _ .vmem, ⟨2, _⟩ => ⟨S1024x256, .f32⟩
  | .local _ .vmem, ⟨3, _⟩ => ⟨S512, .i32⟩
  | .local _ .vmem, ⟨4, _⟩ => ⟨S512x2, .f32⟩
  | .local _ .vmem, ⟨5, _⟩ => ⟨S1024, .i32⟩
  | .local _ .vmem, ⟨6, _⟩ => ⟨S1024, .i32⟩
  | .local _ .vmem, ⟨7, _⟩ => ⟨S1024x2, .f32⟩
  | .local _ .vmem, ⟨8, _⟩ => ⟨S1024x2, .f32⟩
  | .local _ .vmem, ⟨9, _⟩ => ⟨S512, .f32⟩
  | .local _ .vmem, ⟨10, _⟩ => ⟨S512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v65 : BitVec 1 := Scalar.cmpi .eq arg0 c127_i32
  let v66 : BitVec 32 := Scalar.extui v65
  let c0_i32_20 : BitVec 32 := 0#32
  let v67 : BitVec 1 := Scalar.cmpi .ne v66 c0_i32_20
  v67

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x1_S512x1_S512x2_d1 : Shape.Concatenates [S512x1, S512x1] S512x2 1
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S512_S512_0 : ∀ a, (![0] : Fin 1 → Nat) a + S512.size a ≤ S512.size a
  h_S512 : 0 < S512.numel
  shapeCasts_S512_S512 : S512.ShapeCasts S512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  inb_S1024_S1024_0 : ∀ a, (![0] : Fin 1 → Nat) a + S1024.size a ≤ S1024.size a
  h_S1024 : 0 < S1024.numel
  shapeCasts_S512_S512x1 : S512.ShapeCasts S512x1
  shapeCasts_S1024_S1x1024 : S1024.ShapeCasts S1x1024
  broadcasts_S512x1_S512x1024 : S512x1.Broadcasts S512x1024
  broadcasts_S1x1024_S512x1024 : S1x1024.Broadcasts S512x1024
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  reduces_S512x2_S512 : S512x2.Reduces [1] S512
  reduces_S1024x2_S1024 : S1024x2.Reduces [1] S1024
  slices_S512x2_o0_0_S512x1 : S512x2.Slices ![0, 0] S512x1
  slices_S1024x2_o0_0_S1024x1 : S1024x2.Slices ![0, 0] S1024x1
  shapeCasts_S1024x1_S1024 : S1024x1.ShapeCasts S1024
  slices_S512x2_o0_1_S512x1 : S512x2.Slices ![0, 1] S512x1
  slices_S1024x2_o0_1_S1024x1 : S1024x2.Slices ![0, 1] S1024x1
  reduces_S512x1024_S512 : S512x1024.Reduces [1] S512
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .i32 = 32 ∨ (Rect.block (s := S512) S512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S512x2.size a
  hwx0_3 : ∀ i : grid0.Coords, EltTy.bits .f32 = 32 ∨ (Rect.block (s := S512x2) S512x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S131072.size a
  hwx0_4 : ∀ i : grid0.Coords, EltTy.bits .i32 = 32 ∨ (Rect.block (s := S131072) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2.size a ≤ S131072x2.size a
  hwx0_5 : ∀ i : grid0.Coords, EltTy.bits .f32 = 32 ∨ (Rect.block (s := S131072x2) S1024x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v2) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S512x256 : Shape := ⟨2, ![512, 256]⟩
abbrev S131072x256 : Shape := ⟨2, ![131072, 256]⟩
abbrev S512 : Shape := ⟨1, ![512]⟩
abbrev S131072 : Shape := ⟨1, ![131072]⟩
abbrev S_ : Shape := ⟨0, ![]⟩
abbrev S512x1 : Shape := ⟨2, ![512, 1]⟩
abbrev S512x131072 : Shape := ⟨2, ![512, 131072]⟩
abbrev S1x131072 : Shape := ⟨2, ![1, 131072]⟩
abbrev S512x2 : Shape := ⟨2, ![512, 2]⟩
abbrev S131072x1 : Shape := ⟨2, ![131072, 1]⟩
abbrev S131072x2 : Shape := ⟨2, ![131072, 2]⟩
abbrev S2x131072 : Shape := ⟨2, ![2, 131072]⟩

abbrev nBuf : Space → Nat
  | .hbm => 64
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S131072x256, .f32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S131072, .i32⟩
  | .hbm, ⟨6, _⟩ => ⟨S131072, .i32⟩
  | .hbm, ⟨7, _⟩ => ⟨S131072, .i32⟩
  | .hbm, ⟨8, _⟩ => ⟨S512x256, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S512x256, .f32⟩
  | .hbm, ⟨14, _⟩ => ⟨S512x256, .f32⟩
  | .hbm, ⟨15, _⟩ => ⟨S512x131072, .f32⟩
  | .hbm, ⟨16, _⟩ => ⟨S_, .f32⟩
  | .hbm, ⟨17, _⟩ => ⟨S512x131072, .f32⟩
  | .hbm, ⟨18, _⟩ => ⟨S512x131072, .f32⟩
  | .hbm, ⟨19, _⟩ => ⟨S512x131072, .f32⟩
  | .hbm, ⟨20, _⟩ => ⟨S512x1, .i32⟩
  | .hbm, ⟨21, _⟩ => ⟨S1x131072, .i32⟩
  | .hbm, ⟨22, _⟩ => ⟨S512x131072, .i32⟩
  | .hbm, ⟨23, _⟩ => ⟨S512x131072, .i32⟩
  | .hbm, ⟨24, _⟩ => ⟨S512x131072, .i1⟩
  | .hbm, ⟨25, _⟩ => ⟨S512x1, .i32⟩
  | .hbm, ⟨26, _⟩ => ⟨S512x1, .i32⟩
  | .hbm, ⟨27, _⟩ => ⟨S512x2, .i32⟩
  | .hbm, ⟨28, _⟩ => ⟨S512x2, .f32⟩
  | .hbm, ⟨29, _⟩ => ⟨S131072x1, .i32⟩
  | .hbm, ⟨30, _⟩ => ⟨S131072x1, .i32⟩
  | .hbm, ⟨31, _⟩ => ⟨S131072x2, .i32⟩
  | .hbm, ⟨32, _⟩ => ⟨S131072x2, .f32⟩
  | .hbm, ⟨33, _⟩ => ⟨S512x2, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S131072x2, .f32⟩
  | .hbm, ⟨38, _⟩ => ⟨S_, .f32⟩
  | .hbm, ⟨39, _⟩ => ⟨S131072, .f32⟩
  | .hbm, ⟨40, _⟩ => ⟨S1x131072, .f32⟩
  | .hbm, ⟨41, _⟩ => ⟨S512x131072, .f32⟩
  | .hbm, ⟨42, _⟩ => ⟨S512x131072, .f32⟩
  | .hbm, ⟨43, _⟩ => ⟨S512x131072, .f32⟩
  | .hbm, ⟨44, _⟩ => ⟨S_, .f32⟩
  | .hbm, ⟨45, _⟩ => ⟨S512x2, .f32⟩
  | .hbm, ⟨46, _⟩ => ⟨S512x2, .f32⟩
  | .hbm, ⟨47, _⟩ => ⟨S2x131072, .f32⟩
  | .hbm, ⟨48, _⟩ => ⟨S512x131072, .f32⟩
  | .hbm, ⟨49, _⟩ => ⟨S512x131072, .f32⟩
  | .hbm, ⟨50, _⟩ => ⟨S_, .f32⟩
  | .hbm, ⟨51, _⟩ => ⟨S512x131072, .f32⟩
  | .hbm, ⟨52, _⟩ => ⟨S512x131072, .i1⟩
  | .hbm, ⟨53, _⟩ => ⟨S_, .f32⟩
  | .hbm, ⟨54, _⟩ => ⟨S512x131072, .f32⟩
  | .hbm, ⟨55, _⟩ => ⟨S512x131072, .i1⟩
  | .hbm, ⟨56, _⟩ => ⟨S512x131072, .i1⟩
  | .hbm, ⟨57, _⟩ => ⟨S512x131072, .i1⟩
  | .hbm, ⟨58, _⟩ => ⟨S_, .f32⟩
  | .hbm, ⟨59, _⟩ => ⟨S_, .f32⟩
  | .hbm, ⟨60, _⟩ => ⟨S512x131072, .f32⟩
  | .hbm, ⟨61, _⟩ => ⟨S512x131072, .f32⟩
  | .hbm, ⟨62, _⟩ => ⟨S_, .f32⟩
  | .hbm, ⟨63, _⟩ => ⟨S512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S512x131072 : S_.BroadcastsInDim S512x131072 (![] : Fin 0 → Fin S512x131072.rank)
  bcast_S131072_S1x131072_1 : S131072.BroadcastsInDim S1x131072 (![1] : Fin 1 → Fin S1x131072.rank)
  bcast_S512x1_S512x131072_0_1 : S512x1.BroadcastsInDim S512x131072 (![0, 1] : Fin 2 → Fin S512x131072.rank)
  bcast_S1x131072_S512x131072_0_1 : S1x131072.BroadcastsInDim S512x131072 (![0, 1] : Fin 2 → Fin S512x131072.rank)
  concatenates_S512x1_S512x1_S512x2_d1 : Shape.Concatenates [S512x1, S512x1] S512x2 1
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S512x2_S512_d1 : S512x2.ReducesTo [1] S512
  reducesTo_S131072x2_S131072_d1 : S131072x2.ReducesTo [1] S131072
  bcast_S_S512x2 : S_.BroadcastsInDim S512x2 (![] : Fin 0 → Fin S512x2.rank)
  transposes_S131072x2_S2x131072_1_0 : S131072x2.Transposes [1, 0] S2x131072
  reducesTo_S512x131072_S512_d1 : S512x131072.ReducesTo [1] S512
  dot_S512x256_S131072x256_S512x131072_1_1_0_0_n_n_wf : DotDims.WF S512x256 S131072x256 S512x131072 [1] [1] [0] [0] [] []
  dot_S512x2_S2x131072_S512x131072_1_0_0_1_n_n_wf : DotDims.WF S512x2 S2x131072 S512x131072 [1] [0] [0] [1] [] []

variable [Facts₀]

def dot_S512x256_S131072x256_S512x131072_1_1_0_0_n_n : DotDims S512x256 S131072x256 S512x131072 where
  lhsContracting := [1]
  rhsContracting := [1]
  lhsNonContracting := [0]
  rhsNonContracting := [0]
  lhsBatch := []
  rhsBatch := []
  wf := dot_S512x256_S131072x256_S512x131072_1_1_0_0_n_n_wf
def dot_S512x2_S2x131072_S512x131072_1_0_0_1_n_n : DotDims S512x2 S2x131072 S512x131072 where
  lhsContracting := [1]
  rhsContracting := [0]
  lhsNonContracting := [0]
  rhsNonContracting := [1]
  lhsBatch := []
  rhsBatch := []
  wf := dot_S512x2_S2x131072_S512x131072_1_0_0_1_n_n_wf

class Facts : Prop extends Facts₀ where

variable [Facts]
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.Spec.lean ====
/-
  The mathematics of the similarity-sum, stated once on scalars.

  For a query row `b` and a bank row `n` the term that is summed is

      [bag b = bag n  ∧  0 < d²(b, n) < 4] · exp (⟨q_b, m_n⟩ / 0.2)

  where `d²` is the squared distance of two integer grid positions. The two programs spell `d²` differently:
  one as `|a|² + |c|² - 2·(a₀c₀ + a₁c₁)`, the other as `(0 + |a|²) + (0 + |c|²) - Σ_k (2·a_k)·c_k`. The positions are
  integers converted to floats, hence real numbers, and on real numbers the two spellings are one value by
  distributivity; nothing else in the term differs. The bank's 131072 rows are visited in 128 tiles of 1024
  consecutive rows, and a sum over all rows is the sum over the tiles of the sums inside each tile.
-/
import Idealize.ShloMosaic.PureOps.Ideal
import Idealize.ShloMosaic.PureOps.Ideal.Laws
import Idealize.ShloMosaic.Lib.ValueIdx
import proofs.«103643_j59614146068755_1_alg».proof.Proof.LibSumRegroup

noncomputable section

open scoped BigOperators

namespace Cert.Spec

open Idealize.ShloMosaic Idealize.ShloMosaic.ValueIdx

/-- The float `2.0` denotes the real number 2. -/
theorem ofBits_two : Ideal.ofBits .f32 0x40000000#32 = ((2 : ℝ) : EReal) := by
  simp [Ideal.ofBits, Ideal.ieee, -EReal.coe_mul]; norm_num

/-- `exp (⟨q, m⟩ / 0.2)`: the similarity of a query row and a bank row, over the 256 features. -/
def sim (q r : Fin 256 → EReal) : EReal :=
  Ideal.exp (Ideal.div (∑ k : Fin 256, q k * r k) (Ideal.ofBits .f32 0x3E4CCCCD#32))

/-- The similarity `l` kept where the bags agree (`ch`) and the squared distance `d` lies strictly between 0 and 4,
    and zero elsewhere. -/
def masked (ch : BitVec 1) (d l : EReal) : EReal :=
  Scalar.select
    (IntOp.andi ch (IntOp.andi (Ideal.cmp .olt d (Ideal.ofBits .f32 0x40800000#32)) (Ideal.cmp .ogt d (Ideal.ofBits .f32 0x00000000#32))))
    l (Ideal.ofBits .f32 0x00000000#32)

/-- The squared distance as `|a|² + |c|² - 2·(a₀c₀ + a₁c₁)`. -/
def dist2K (a c : Fin 2 → EReal) : EReal :=
  ((∑ k : Fin 2, a k * a k) + (∑ k : Fin 2, c k * c k))
    - Ideal.ofBits .f32 0x40000000#32 * (a 0 * c 0 + a 1 * c 1)

/-- The squared distance as `(0 + |a|²) + (0 + |c|²) - Σ_k (2·a_k)·c_k`. -/
def dist2R (a c : Fin 2 → EReal) : EReal :=
  ((Ideal.ofBits .f32 0x00000000#32 + ∑ k : Fin 2, a k * a k) + (Ideal.ofBits .f32 0x00000000#32 + ∑ k : Fin 2, c k * c k))
    - ∑ k : Fin 2, (Ideal.ofBits .f32 0x40000000#32 * a k) * c k

/-- On real positions the two spellings of the squared distance are one number: `2·(x + y) = 2·x + 2·y`. -/
theorem dist2K_eq_dist2R (a c : Fin 2 → ℝ) :
    dist2K (fun k => ((a k : ℝ) : EReal)) (fun k => ((c k : ℝ) : EReal))
      = dist2R (fun k => ((a k : ℝ) : EReal)) (fun k => ((c k : ℝ) : EReal)) := by
  unfold dist2K dist2R
  rw [Ideal.ofBits_zero_f32, zero_add, zero_add, ofBits_two, Fin.sum_univ_two (fun k : Fin 2 => ((2 : ℝ) : EReal) * ((a k : ℝ) : EReal) * ((c k : ℝ) : EReal))]
  congr 1
  rw [← EReal.coe_mul, ← EReal.coe_mul, ← EReal.coe_add, ← EReal.coe_mul, ← EReal.coe_mul, ← EReal.coe_mul, ← EReal.coe_mul,
    ← EReal.coe_mul, ← EReal.coe_add]
  exact congrArg _ (by ring)

/-- One term of the sum, with the squared distance in its first spelling. -/
def cellK (q r : Fin 256 → EReal) (bb bn : BitVec 32) (a c : Fin 2 → EReal) : EReal :=
  masked (IntOp.cmpi .eq bb bn) (dist2K a c) (sim q r)

/-- One term of the sum, with the squared distance in its second spelling. -/
def cellR (q r : Fin 256 → EReal) (bb bn : BitVec 32) (a c : Fin 2 → EReal) : EReal :=
  masked (IntOp.cmpi .eq bb bn) (dist2R a c) (sim q r)

/-- On real positions the two terms are equal. -/
theorem cellK_eq_cellR (q r : Fin 256 → EReal) (bb bn : BitVec 32) (a c : Fin 2 → ℝ) :
    cellK q r bb bn (fun k => ((a k : ℝ) : EReal)) (fun k => ((c k : ℝ) : EReal))
      = cellR q r bb bn (fun k => ((a k : ℝ) : EReal)) (fun k => ((c k : ℝ) : EReal)) := by
  unfold cellK cellR
  rw [dist2K_eq_dist2R]

/-- Bank row `1024·s + j`: row `j` of tile `s`. -/
def row (s : Fin 128) (j : Fin 1024) : Fin 131072 := ⟨1024 * s.val + j.val, by have := s.isLt; have := j.isLt; omega⟩

/-- A sum over the bank's rows is the sum over the 128 tiles of the sums over each tile's 1024 rows. -/
theorem sum_rows (f : Fin 131072 → EReal) : ∑ n : Fin 131072, f n = ∑ s : Fin 128, ∑ j : Fin 1024, f (row s j) := by
  rw [Cert.Lib.SumRegroup.sum_fin_mul 128 1024 131072 (by norm_num) f]
  refine Finset.sum_congr rfl fun s _ => Finset.sum_congr rfl fun j _ => congrArg f (Fin.ext ?_)
  show (finProdFinEquiv (s, j)).val = 1024 * s.val + j.val
  rw [finProdFinEquiv_apply_val]; dsimp only; omega

/-! ## The result, over whole arrays -/

/-- What tile `s` contributes to query row `b`: the terms of `b` against the tile's 1024 bank rows, the squared
    distance in its first spelling. -/
def tileSum (QN : (⟨2, ![512, 256]⟩ : Shape).Idx → EReal) (MEM : (⟨2, ![131072, 256]⟩ : Shape).Idx → EReal)
    (BAG : (⟨1, ![512]⟩ : Shape).Idx → BitVec 32) (BAGS : (⟨1, ![131072]⟩ : Shape).Idx → BitVec 32)
    (CQ : (⟨2, ![512, 2]⟩ : Shape).Idx → EReal) (CB : (⟨2, ![131072, 2]⟩ : Shape).Idx → EReal)
    (s : Fin 128) (b : Fin 512) : EReal :=
  ∑ j : Fin 1024, cellK (fun k => QN (ix2 b k)) (fun k => MEM (ix2 (row s j) k)) (BAG (ix1 b)) (BAGS (ix1 (row s j)))
    (fun k => CQ (ix2 b k)) (fun k => CB (ix2 (row s j) k))

/-- The result at query row `b`: zero plus the terms of `b` against every bank row, the positions given as the integers
    they are, the squared distance in its second spelling. -/
def total (QN : (⟨2, ![512, 256]⟩ : Shape).Idx → EReal) (MEM : (⟨2, ![131072, 256]⟩ : Shape).Idx → EReal)
    (BAG : (⟨1, ![512]⟩ : Shape).Idx → BitVec 32) (BAGS : (⟨1, ![131072]⟩ : Shape).Idx → BitVec 32)
    (CQi : (⟨2, ![512, 2]⟩ : Shape).Idx → BitVec 32) (CBi : (⟨2, ![131072, 2]⟩ : Shape).Idx → BitVec 32)
    (b : Fin 512) : EReal :=
  Ideal.ofBits .f32 0x00000000#32 + ∑ n : Fin 131072,
    cellR (fun k => QN (ix2 b k)) (fun k => MEM (ix2 n k)) (BAG (ix1 b)) (BAGS (ix1 n))
      (fun k => (((CQi (ix2 b k)).toInt : ℝ) : EReal)) (fun k => (((CBi (ix2 n k)).toInt : ℝ) : EReal))

/-- Zero plus the 128 tiles' contributions, in grid order, is the result: the tiles partition the bank's rows, and on
    integer positions the two spellings of the squared distance agree. -/
theorem tiles_total (QN : (⟨2, ![512, 256]⟩ : Shape).Idx → EReal) (MEM : (⟨2, ![131072, 256]⟩ : Shape).Idx → EReal)
    (BAG : (⟨1, ![512]⟩ : Shape).Idx → BitVec 32) (BAGS : (⟨1, ![131072]⟩ : Shape).Idx → BitVec 32)
    (CQi : (⟨2, ![512, 2]⟩ : Shape).Idx → BitVec 32) (CBi : (⟨2, ![131072, 2]⟩ : Shape).Idx → BitVec 32)
    (b : Fin 512) :
    (0 : EReal) + ∑ s ∈ Finset.range 128,
        (if h : s < 128 then
          tileSum QN MEM BAG BAGS (fun i => (((CQi i).toInt : ℝ) : EReal)) (fun i => (((CBi i).toInt : ℝ) : EReal)) ⟨s, h⟩ b
        else 0)
      = total QN MEM BAG BAGS CQi CBi b := by
  unfold total
  rw [Ideal.ofBits_zero_f32]
  refine congrArg (fun z : EReal => (0 : EReal) + z) ?_
  rw [Finset.sum_range (fun s => if h : s < 128 then
      tileSum QN MEM BAG BAGS (fun i => (((CQi i).toInt : ℝ) : EReal)) (fun i => (((CBi i).toInt : ℝ) : EReal)) ⟨s, h⟩ b else 0),
    sum_rows]
  refine Finset.sum_congr rfl fun s _ => ?_
  rw [dif_pos s.isLt]
  unfold tileSum
  refine Finset.sum_congr rfl fun j _ => ?_
  exact cellK_eq_cellR _ _ _ _ (fun k => ((CQi (ix2 b k)).toInt : ℝ)) (fun k => ((CBi (ix2 (row s j) k)).toInt : ℝ))

end Cert.Spec

end
-- ==== Proof.KernelCell.lean ====
/-
  The body's seven intermediate arrays, read at an entry.

  From the blocks it loads — the normalized queries `x0` [512, 256], a tile of the bank `x1` [1024, 256], the query bags
  `x2` [512] and positions `x3` [512, 2], the tile's bags `x4` [1024] and positions `x5` [1024, 2] — the body forms:
  the similarity `exp (⟨x0_b, x1_j⟩ / 0.2)`, a matrix product into a zero accumulator being the plain sum over the 256
  features; the bag agreement `x2_b = x4_j`; the squared norms of the two positions, a lane sum over the two coordinates;
  and the pieces `x3_b0·x5_j0`, `x5_j1`, `x3_b1` of the cross term. Every other operation is a change of layout
  (a column kept from a vector, a row spread over the rows, a slice of one coordinate, a transpose) and reads its
  operand at one entry.
-/
import proofs.«103643_j59614146068755_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«103643_j59614146068755_1_alg».proof.Proof.LibMatmulPlain
import proofs.«103643_j59614146068755_1_alg».proof.Proof.LibColumn
import proofs.«103643_j59614146068755_1_alg».proof.Proof.Spec

noncomputable section

open scoped BigOperators

namespace Cert.KernelIdeal.Cell

open Cert.KernelIdeal Cert.KernelIdeal.Gen Idealize.ShloMosaic Idealize.ShloMosaic.ValueIdx

/-! ## Layout operations at an entry -/

/-- A [b] vector viewed as a [1, b] row reads, at `(0, j)`, the vector's entry `j`. -/
theorem row_of_vec {α : Type} (x : S1024.Idx → α) (j : Fin 1024) :
    shapeCast S1x1024 x shapeCasts_S1024_S1x1024 (ix2 (0 : Fin 1) j) = x (ix1 j) :=
  shapeCast_a_1a_apply x shapeCasts_S1024_S1x1024 _ j

/-- A [1, 1024] row spread over 512 rows reads, at `(b, j)`, the row's entry `j`. -/
theorem spread_row {α : Type} (v : S1x1024.Idx → α) (b : Fin 512) (j : Fin 1024) :
    broadcastTo S512x1024 v broadcasts_S1x1024_S512x1024 (ix2 b j) = v (ix2 (0 : Fin 1) j) :=
  broadcastTo_1b_ab_apply v broadcasts_S1x1024_S512x1024 b j

/-- A [512, 1] column spread along 1024 columns reads, at `(b, j)`, the column's entry `b`. -/
theorem spread_col {α : Type} (v : S512x1.Idx → α) (b : Fin 512) (j : Fin 1024) :
    broadcastTo S512x1024 v broadcasts_S512x1_S512x1024 (ix2 b j) = v (ix2 b (0 : Fin 1)) :=
  Cert.Lib.broadcastTo_a1_ab_apply v broadcasts_S512x1_S512x1024 b j

/-- A [512] vector kept as a [512, 1] column reads, at `(b, 0)`, the vector's entry `b`. -/
theorem col_of_vec {α : Type} (x : S512.Idx → α) (b : Fin 512) :
    shapeCast S512x1 x shapeCasts_S512_S512x1 (ix2 b (0 : Fin 1)) = x (ix1 b) :=
  Cert.Lib.shapeCast_a_a1_apply x shapeCasts_S512_S512x1 b 0

/-- A [1024, 1] column read as a [1024] vector has, at `j`, the column's entry `(j, 0)`. -/
theorem vec_of_col {α : Type} (x : S1024x1.Idx → α) (j : Fin 1024) :
    shapeCast S1024 x shapeCasts_S1024x1_S1024 (ix1 j) = x (ix2 j (0 : Fin 1)) :=
  shapeCast_apply x shapeCasts_S1024x1_S1024 _ _ (by
    rw [Shape.rowMajor_val_two, Shape.rowMajor_val_one]
    show j.val * 1 + 0 = j.val
    omega)

/-- The first coordinate of the 512 positions, as a column. -/
theorem coord512_0 {α : Type} (x : S512x2.Idx → α) (b : Fin 512) :
    extractStridedSlice S512x1 ![0, 0] x slices_S512x2_o0_0_S512x1 (ix2 b (0 : Fin 1)) = x (ix2 b 0) :=
  extractStridedSlice_apply _ x slices_S512x2_o0_0_S512x1 _ _ (fun a => by
    match a with
    | ⟨0, _⟩ => show b.val = 0 + b.val; omega
    | ⟨1, _⟩ => rfl)

/-- The second coordinate of the 512 positions, as a column. -/
theorem coord512_1 {α : Type} (x : S512x2.Idx → α) (b : Fin 512) :
    extractStridedSlice S512x1 ![0, 1] x slices_S512x2_o0_1_S512x1 (ix2 b (0 : Fin 1)) = x (ix2 b 1) :=
  extractStridedSlice_apply _ x slices_S512x2_o0_1_S512x1 _ _ (fun a => by
    match a with
    | ⟨0, _⟩ => show b.val = 0 + b.val; omega
    | ⟨1, _⟩ => rfl)

/-- The first coordinate of a tile's 1024 positions, as a column. -/
theorem coord1024_0 {α : Type} (x : S1024x2.Idx → α) (j : Fin 1024) :
    extractStridedSlice S1024x1 ![0, 0] x slices_S1024x2_o0_0_S1024x1 (ix2 j (0 : Fin 1)) = x (ix2 j 0) :=
  extractStridedSlice_apply _ x slices_S1024x2_o0_0_S1024x1 _ _ (fun a => by
    match a with
    | ⟨0, _⟩ => show j.val = 0 + j.val; omega
    | ⟨1, _⟩ => rfl)

/-- The second coordinate of a tile's 1024 positions, as a column. -/
theorem coord1024_1 {α : Type} (x : S1024x2.Idx → α) (j : Fin 1024) :
    extractStridedSlice S1024x1 ![0, 1] x slices_S1024x2_o0_1_S1024x1 (ix2 j (0 : Fin 1)) = x (ix2 j 1) :=
  extractStridedSlice_apply _ x slices_S1024x2_o0_1_S1024x1 _ _ (fun a => by
    match a with
    | ⟨0, _⟩ => show j.val = 0 + j.val; omega
    | ⟨1, _⟩ => rfl)

/-- The transposed tile reads, at `(k, j)`, the tile's entry `(j, k)`. -/
theorem tile_transposed {α : Type} (x : S1024x256.Idx → α) (k : Fin 256) (j : Fin 1024) :
    transpose S256x1024 [1, 0] x transposes_S1024x256_p1_0_S256x1024 (ix2 k j) = x (ix2 j k) :=
  transpose_ix2_apply x transposes_S1024x256_p1_0_S256x1024 k j

/-! ## Lane sums over the two coordinates -/

/-- The squared norm of position `b` among 512: the lane sum of the squares of its two coordinates. -/
theorem sqnorm512 (x : FVec Ideal S512x2 .f32) (b : Fin 512) :
    multiReduction .add [1] S512 (mulf x x) 0x00000000#32 reduces_S512x2_S512 (.inl rfl) rfl (ix1 b)
      = ∑ k : Fin 2, x (ix2 b k) * x (ix2 b k) := by
  refine (Ideal.multiReduction_add_single (mulf x x) 0x00000000#32 reduces_S512x2_S512 (.inl rfl) rfl (ix1 b)).trans ?_
  refine Finset.sum_congr rfl fun k _ => ?_
  have e : reduces_S512x2_S512.lift (ix1 b) k = ix2 b k :=
    funext fun a => Fin.ext (by match a with | ⟨0, _⟩ => rfl | ⟨1, _⟩ => rfl)
  rw [e]; rfl

/-- The squared norm of position `j` among a tile's 1024. -/
theorem sqnorm1024 (x : FVec Ideal S1024x2 .f32) (j : Fin 1024) :
    multiReduction .add [1] S1024 (mulf x x) 0x00000000#32 reduces_S1024x2_S1024 (.inl rfl) rfl (ix1 j)
      = ∑ k : Fin 2, x (ix2 j k) * x (ix2 j k) := by
  refine (Ideal.multiReduction_add_single (mulf x x) 0x00000000#32 reduces_S1024x2_S1024 (.inl rfl) rfl (ix1 j)).trans ?_
  refine Finset.sum_congr rfl fun k _ => ?_
  have e : reduces_S1024x2_S1024.lift (ix1 j) k = ix2 j k :=
    funext fun a => Fin.ext (by match a with | ⟨0, _⟩ => rfl | ⟨1, _⟩ => rfl)
  rw [e]; rfl

/-! ## The seven intermediate arrays -/

/-- The product's dimension numbers are the plain ones: rows by columns, no batch axis. -/
theorem dot_plain : dot_S512x256_S256x1024_S512x1024_1_0_0_1_n_n = DotDims.plain 512 256 1024 := rfl

/-- The similarity at `(b, j)`: `exp (⟨x0_b, x1_j⟩ / 0.2)`. -/
theorem sim_apply (x0 : Vec Ideal S512x256 .f32) (x1 : Vec Ideal S1024x256 .f32) (b : Fin 512) (j : Fin 1024) :
    k0_pay3 (F := Ideal) x0 x1 (ix2 b j) = Cert.Spec.sim (fun k => x0 (ix2 b k)) (fun k => x1 (ix2 j k)) := by
  unfold k0_pay3 Cert.Spec.sim
  show Ideal.exp (Ideal.div (matmul (F := Ideal) dot_S512x256_S256x1024_S512x1024_1_0_0_1_n_n none
      (truncf (F := Ideal) .bf16 (shapeCast S512x256 x0 shapeCasts_S512x256_S512x256) bitsLt_bf16_f32)
      (transpose S256x1024 [1, 0] (truncf (F := Ideal) .bf16 x1 bitsLt_bf16_f32) transposes_S1024x256_p1_0_S256x1024)
      (constant (F := Ideal) S512x1024 .f32 0x00000000#32) (ix2 b j)) (Ideal.ofBits .f32 0x3E4CCCCD#32)) = _
  refine congrArg (fun s => Ideal.exp (Ideal.div s (Ideal.ofBits .f32 0x3E4CCCCD#32))) ?_
  rw [dot_plain]
  refine (Cert.Lib.matmul_plain_zero_apply 512 256 1024 none _ _ b j).trans ?_
  refine Finset.sum_congr rfl fun k _ => ?_
  rw [tile_transposed, shapeCast_self]
  rfl

/-- The bag agreement at `(b, j)`. -/
theorem chosen_apply (x2 : Vec Ideal S512 .i32) (x4 : Vec Ideal S1024 .i32) (b : Fin 512) (j : Fin 1024) :
    k0_pay4 (F := Ideal) x2 x4 (ix2 b j) = IntOp.cmpi .eq (x2 (ix1 b)) (x4 (ix1 j)) := by
  unfold k0_pay4
  try dsimp only
  show IntOp.cmpi .eq (broadcastTo S512x1024 (shapeCast S512x1 x2 shapeCasts_S512_S512x1) broadcasts_S512x1_S512x1024 (ix2 b j))
      (broadcastTo S512x1024 (shapeCast S1x1024 x4 shapeCasts_S1024_S1x1024) broadcasts_S1x1024_S512x1024 (ix2 b j)) = _
  rw [spread_col, col_of_vec, spread_row, row_of_vec]

/-- The squared norm of query position `b`, kept as a column. -/
theorem qnorm_apply (x3 : Vec Ideal S512x2 .f32) (b : Fin 512) :
    k0_pay7 (F := Ideal) x3 (ix2 b (0 : Fin 1)) = ∑ k : Fin 2, x3 (ix2 b k) * x3 (ix2 b k) := by
  unfold k0_pay7 k0_pay5
  try dsimp only
  rw [col_of_vec, shapeCast_self]
  exact sqnorm512 x3 b

/-- The squared norm of the tile's position `j`, as a row. -/
theorem bnorm_apply (x5 : Vec Ideal S1024x2 .f32) (j : Fin 1024) :
    k0_pay8 (F := Ideal) x5 (ix2 (0 : Fin 1) j) = ∑ k : Fin 2, x5 (ix2 j k) * x5 (ix2 j k) := by
  unfold k0_pay8 k0_pay6
  try dsimp only
  rw [row_of_vec, shapeCast_self]
  exact sqnorm1024 x5 j

/-- The first cross product at `(b, j)`. -/
theorem cross0_apply (x3 : Vec Ideal S512x2 .f32) (x5 : Vec Ideal S1024x2 .f32) (b : Fin 512) (j : Fin 1024) :
    k0_pay9 (F := Ideal) x3 x5 (ix2 b j) = x3 (ix2 b 0) * x5 (ix2 j 0) := by
  unfold k0_pay9 k0_pay5 k0_pay6
  try dsimp only
  rw [shapeCast_self, shapeCast_self, mulf_apply, spread_col, spread_row, row_of_vec, vec_of_col, coord512_0, coord1024_0]

/-- The tile's second coordinate at `j`, as a row. -/
theorem b1_apply (x5 : Vec Ideal S1024x2 .f32) (j : Fin 1024) :
    k0_pay10 (F := Ideal) x5 (ix2 (0 : Fin 1) j) = x5 (ix2 j 1) := by
  unfold k0_pay10 k0_pay6
  try dsimp only
  rw [shapeCast_self, row_of_vec, vec_of_col, coord1024_1]

/-- The query's second coordinate at `b`, spread along the columns. -/
theorem a1_apply (x3 : Vec Ideal S512x2 .f32) (b : Fin 512) (j : Fin 1024) :
    k0_pay11 (F := Ideal) x3 (ix2 b j) = x3 (ix2 b 1) := by
  unfold k0_pay11 k0_pay5
  try dsimp only
  rw [shapeCast_self, spread_col, coord512_1]

end Cert.KernelIdeal.Cell

end
-- ==== Proof.KernelPay.lean ====
/-
  What one grid point adds to the accumulator, at an entry.

  The accumulating store writes `acc + partial`, where `partial b` is the lane sum over the tile's 1024 rows `j` of
  the masked similarity: the similarity `v12 (b, j)` kept where the bags agree and the squared distance
  `(|a_b|² + |c_j|²) - 2·(a_b0·c_j0 + a_b1·c_j1)` lies strictly between 0 and 4. With the seven intermediate arrays read
  at their entries, the term at `(b, j)` is the specification's term of query row `b` and tile row `j`.
-/
import proofs.«103643_j59614146068755_1_alg».proof.Proof.KernelCell

noncomputable section

open scoped BigOperators

namespace Cert.KernelIdeal.Cell

open Cert.KernelIdeal Cert.KernelIdeal.Gen Idealize.ShloMosaic Idealize.ShloMosaic.ValueIdx

/-- The accumulating store's value at `b`, over the seven intermediate arrays as variables. -/
theorem acc_apply (v12 : FVec Ideal S512x1024 .f32) (v19 : IVec S512x1024 1) (v26 : FVec Ideal S512x1 .f32)
    (v29 : FVec Ideal S1x1024 .f32) (v36 : FVec Ideal S512x1024 .f32) (v40 : FVec Ideal S1x1024 .f32)
    (v41 : FVec Ideal S512x1024 .f32) (v60 : Vec Ideal S512 .f32) (b : Fin 512) :
    k0_pay1 (F := Ideal) v12 v19 v26 v29 v36 v40 v41 v60 (ix1 b)
      = v60 (ix1 b) + ∑ j : Fin 1024,
          Cert.Spec.masked (v19 (ix2 b j))
            ((v26 (ix2 b (0 : Fin 1)) + v29 (ix2 (0 : Fin 1) j))
              - Ideal.ofBits .f32 0x40000000#32 * (v36 (ix2 b j) + v41 (ix2 b j) * v40 (ix2 (0 : Fin 1) j)))
            (v12 (ix2 b j)) := by
  unfold k0_pay1
  rw [shapeCast_self, addf_apply]
  refine congrArg (v60 (ix1 b) + ·) ?_
  refine (Ideal.multiReduction_add_single _ 0x00000000#32 reduces_S512x1024_S512 (.inl rfl) rfl (ix1 b)).trans ?_
  refine Finset.sum_congr rfl fun (j : Fin 1024) _ => ?_
  have e : reduces_S512x1024_S512.lift (ix1 b) j = ix2 b j :=
    funext fun a => Fin.ext (by match a with | ⟨0, _⟩ => rfl | ⟨1, _⟩ => rfl)
  rw [e]
  unfold Cert.Spec.masked
  simp only [select, andi, cmpf, subf, addf, mulf, broadcast]
  rw [spread_col v26 b j, spread_row v29 b j, spread_row v40 b j]
  rfl

/-- The accumulating store's value at `b` from the loaded blocks: what was there plus the tile's terms. -/
theorem pay_apply (x0 : Vec Ideal S512x256 .f32) (x1 : Vec Ideal S1024x256 .f32) (x2 : Vec Ideal S512 .i32)
    (x3 : Vec Ideal S512x2 .f32) (x4 : Vec Ideal S1024 .i32) (x5 : Vec Ideal S1024x2 .f32) (acc : Vec Ideal S512 .f32)
    (b : Fin 512) :
    k0_pay1 (F := Ideal) (k0_pay3 x0 x1) (k0_pay4 x2 x4) (k0_pay7 x3) (k0_pay8 x5) (k0_pay9 x3 x5) (k0_pay10 x5) (k0_pay11 x3)
        acc (ix1 b)
      = acc (ix1 b) + ∑ j : Fin 1024,
          Cert.Spec.cellK (fun k => x0 (ix2 b k)) (fun k => x1 (ix2 j k)) (x2 (ix1 b)) (x4 (ix1 j))
            (fun k => x3 (ix2 b k)) (fun k => x5 (ix2 j k)) := by
  rw [acc_apply]
  refine congrArg (acc (ix1 b) + ·) (Finset.sum_congr rfl fun j _ => ?_)
  rw [sim_apply, chosen_apply, qnorm_apply, bnorm_apply, cross0_apply, b1_apply, a1_apply]
  rfl

/-- The reset store's value: zero at every entry. -/
theorem zero_apply (i : S512.Idx) : k0_pay2 (F := Ideal) i = 0 := by
  unfold k0_pay2
  rw [shapeCast_self]
  exact Ideal.ofBits_zero_f32

end Cert.KernelIdeal.Cell

end
-- ==== Proof.KernelPieces.lean ====
/-
  What each control case of the body leaves behind, as values.

  The body runs in one of three ways. At the first grid point it stores zeros into the accumulator, reads them back
  and stores `zeros + partial`; at a middle point it stores `acc + partial` over what the point before left; at the last
  point it does the same and then copies the accumulator into the output block. In every case the value left is the one
  accumulating store's payload `step`, a function of the six loaded blocks and of what the accumulator held — the stores
  cover the whole buffer, so reading the buffer back gives the stored value itself.
-/
import proofs.«103643_j59614146068755_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The accumulating store's value from the six loaded blocks and the accumulator's contents `acc`. -/
abbrev step (x0 : Vec F S512x256 .f32) (x1 : Vec F S1024x256 .f32) (x2 : Vec F S512 .i32) (x3 : Vec F S512x2 .f32) (x4 : Vec F S1024 .i32) (x5 : Vec F S1024x2 .f32) (acc : Vec F S512 .f32) : FVec F S512 .f32 :=
  k0_pay1 (k0_pay3 x0 x1) (k0_pay4 x2 x4) (k0_pay7 x3) (k0_pay8 x5) (k0_pay9 x3 x5) (k0_pay10 x5) (k0_pay11 x3) acc

variable (c : Dev nD) (i : grid0.Coords) (arg1 : Memref sig .tc .vmem S512x256 .f32) (harg1 : arg1.IsWhole) (arg2 : Memref sig .tc .vmem S1024x256 .f32) (harg2 : arg2.IsWhole) (arg3 : Memref sig .tc .vmem S512 .i32) (harg3 : arg3.IsWhole) (arg4 : Memref sig .tc .vmem S512x2 .f32) (harg4 : arg4.IsWhole) (arg5 : Memref sig .tc .vmem S1024 .i32) (harg5 : arg5.IsWhole) (arg6 : Memref sig .tc .vmem S1024x2 .f32) (harg6 : arg6.IsWhole) (arg7 : Memref sig .tc .vmem S512 .f32) (harg7 : arg7.IsWhole) (arg8 : Memref sig .tc .vmem S512 .f32) (harg8 : arg8.IsWhole)

/-- A middle point leaves `step` of the blocks over what the accumulator held. -/
theorem scratch_B (hc0 : ¬cond0_0 i) (hc1 : ¬cond0_1 i) (x0 : Vec F S512x256 .f32) (x1 : Vec F S1024x256 .f32) (x2 : Vec F S512 .i32) (x3 : Vec F S512x2 .f32) (x4 : Vec F S1024 .i32) (x5 : Vec F S1024x2 .f32) (xs0 : Vec F S512 .f32) :
    sout0_B_0 c i arg1 harg1 arg2 harg2 arg3 harg3 arg4 harg4 arg5 harg5 arg6 harg6 arg7 harg7 arg8 harg8 hc0 hc1 x0 x1 x2 x3 x4 x5 xs0 = step x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S512x256) hz2, View.ld_unit_zero (S := S1024x256) hz2, View.ld_unit_zero (S := S512x2) hz2, View.ld_unit_zero (S := S1024x2) hz2, View.ld_unit_zero (S := S512) hz1, View.ld_unit_zero (S := S1024) hz1]

/-- The last point leaves the same in the accumulator … -/
theorem scratch_C (hc0 : ¬cond0_0 i) (hc1 : cond0_1 i) (x0 : Vec F S512x256 .f32) (x1 : Vec F S1024x256 .f32) (x2 : Vec F S512 .i32) (x3 : Vec F S512x2 .f32) (x4 : Vec F S1024 .i32) (x5 : Vec F S1024x2 .f32) (xs0 : Vec F S512 .f32) :
    sout0_C_0 c i arg1 harg1 arg2 harg2 arg3 harg3 arg4 harg4 arg5 harg5 arg6 harg6 arg7 harg7 arg8 harg8 hc0 hc1 x0 x1 x2 x3 x4 x5 xs0 = step x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S512x256) hz2, View.ld_unit_zero (S := S1024x256) hz2, View.ld_unit_zero (S := S512x2) hz2, View.ld_unit_zero (S := S1024x2) hz2, View.ld_unit_zero (S := S512) hz1, View.ld_unit_zero (S := S1024) hz1]

/-- … and copies it into the output block. -/
theorem out_C (hc0 : ¬cond0_0 i) (hc1 : cond0_1 i) (x0 : Vec F S512x256 .f32) (x1 : Vec F S1024x256 .f32) (x2 : Vec F S512 .i32) (x3 : Vec F S512x2 .f32) (x4 : Vec F S1024 .i32) (x5 : Vec F S1024x2 .f32) (xs0 : Vec F S512 .f32) :
    out0_C_6 c i arg1 harg1 arg2 harg2 arg3 harg3 arg4 harg4 arg5 harg5 arg6 harg6 arg7 harg7 arg8 harg8 hc0 hc1 x0 x1 x2 x3 x4 x5 xs0 = step x0 x1 x2 x3 x4 x5 xs0 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, View.ld_unit_zero (S := S512x256) hz2, View.ld_unit_zero (S := S1024x256) hz2, View.ld_unit_zero (S := S512x2) hz2, View.ld_unit_zero (S := S1024x2) hz2, View.ld_unit_zero (S := S512) hz1, View.ld_unit_zero (S := S1024) hz1]
  exact View.readCov_unit_zero (S := S512) _ hz1 _ _

/-- The first point leaves `step` of the blocks over the zeros it has just stored. -/
theorem scratch_A (hc0 : cond0_0 i) (hc1 : ¬cond0_1 i) (x0 : Vec F S512x256 .f32) (x1 : Vec F S1024x256 .f32) (x2 : Vec F S512 .i32) (x3 : Vec F S512x2 .f32) (x4 : Vec F S1024 .i32) (x5 : Vec F S1024x2 .f32) :
    sout0_A_0 c i arg1 harg1 arg2 harg2 arg3 harg3 arg4 harg4 arg5 harg5 arg6 harg6 arg7 harg7 arg8 harg8 hc0 hc1 x0 x1 x2 x3 x4 x5 = step x0 x1 x2 x3 x4 x5 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S512) hz1, View.readCov_unit_zero (S := S512) _ hz1]
  simp only [View.readAt_eq_ld, harg1.read_unread, harg2.read_unread, harg3.read_unread, harg4.read_unread, harg5.read_unread, harg6.read_unread, harg7.read_unread, harg8.read_unread, View.ld_unit_zero (S := S512x256) hz2, View.ld_unit_zero (S := S1024x256) hz2, View.ld_unit_zero (S := S512x2) hz2, View.ld_unit_zero (S := S1024x2) hz2, View.ld_unit_zero (S := S512) hz1, View.ld_unit_zero (S := S1024) hz1]

end Cert.KernelIdeal.Pieces

end
-- ==== Proof.KernelBlocks.lean ====
/-
  Which entries of the arrays each grid point's blocks hold.

  The queries, their bags and their positions are handed whole to every grid point (block index 0). The bank, its bags
  and its positions are handed tile by tile: at grid point `t` the block is rows `1024·t … 1024·t + 1023`. An entry of
  a block is the array's entry at block index × block size + the coordinate inside the block, on each axis.
-/
import proofs.«103643_j59614146068755_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided once over the grid: the three query windows and the output stay at block 0, the three
    bank windows are at block `t` along the rows. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = t.val
    ∧ win0_5.index t (0 : Fin 2) = t.val ∧ win0_5.index t (1 : Fin 2) = 0
    ∧ win0_6.index t (0 : Fin 1) = 0 :=
  (by decide +kernel : ∀ t : Fin grid0.N, _)

/-- The queries' block is the whole array. -/
theorem blk0 (c : Dev nD) (t : Fin cfg0.N) (b : Fin 512) (k : Fin 256) :
    iblk m c 0 t (ix2 b k) = V m c main_v2 (ix2 b k) := by
  obtain ⟨e0, e1, -⟩ := idx_facts t
  show V m c main_v2 (((cfg0.win 0).blk t).view.emb (ix2 b k)) = _
  refine congrArg (V m c main_v2) (funext fun a => Fin.ext ?_)
  match a with
  | ⟨0, _⟩ => show win0_0.index t (0 : Fin 2) * 512 + 1 * b.val = b.val; omega
  | ⟨1, _⟩ => show win0_0.index t (1 : Fin 2) * 256 + 1 * k.val = k.val; omega

/-- The bank's block at point `t` is rows `1024·t + j`. -/
theorem blk1 (c : Dev nD) (t : Fin cfg0.N) (j : Fin 1024) (k : Fin 256) (n : Fin 131072) (hn : n.val = 1024 * t.val + j.val) :
    iblk m c 1 t (ix2 j k) = V m c main_arg1 (ix2 n k) := by
  obtain ⟨-, -, e0, e1, -⟩ := idx_facts t
  show V m c main_arg1 (((cfg0.win 1).blk t).view.emb (ix2 j k)) = _
  refine congrArg (V m c main_arg1) (funext fun a => Fin.ext ?_)
  match a with
  | ⟨0, _⟩ => show win0_1.index t (0 : Fin 2) * 1024 + 1 * j.val = n.val; omega
  | ⟨1, _⟩ => show win0_1.index t (1 : Fin 2) * 256 + 1 * k.val = k.val; omega

/-- The query bags' block is the whole array. -/
theorem blk2 (c : Dev nD) (t : Fin cfg0.N) (b : Fin 512) :
    iblk m c 2 t (ix1 b) = V m c main_arg2 (ix1 b) := by
  obtain ⟨-, -, -, -, e0, -⟩ := idx_facts t
  show V m c main_arg2 (((cfg0.win 2).blk t).view.emb (ix1 b)) = _
  refine congrArg (V m c main_arg2) (funext fun a => Fin.ext ?_)
  match a with
  | ⟨0, _⟩ => show win0_2.index t (0 : Fin 1) * 512 + 1 * b.val = b.val; omega

/-- The query positions' block is the whole array. -/
theorem blk3 (c : Dev nD) (t : Fin cfg0.N) (b : Fin 512) (k : Fin 2) :
    iblk m c 3 t (ix2 b k) = V m c main_v6 (ix2 b k) := by
  obtain ⟨-, -, -, -, -, e0, e1, -⟩ := idx_facts t
  show V m c main_v6 (((cfg0.win 3).blk t).view.emb (ix2 b k)) = _
  refine congrArg (V m c main_v6) (funext fun a => Fin.ext ?_)
  match a with
  | ⟨0, _⟩ => show win0_3.index t (0 : Fin 2) * 512 + 1 * b.val = b.val; omega
  | ⟨1, _⟩ => show win0_3.index t (1 : Fin 2) * 2 + 1 * k.val = k.val; omega

/-- The bank bags' block at point `t` is entries `1024·t + j`. -/
theorem blk4 (c : Dev nD) (t : Fin cfg0.N) (j : Fin 1024) (n : Fin 131072) (hn : n.val = 1024 * t.val + j.val) :
    iblk m c 4 t (ix1 j) = V m c main_arg5 (ix1 n) := by
  obtain ⟨-, -, -, -, -, -, -, e0, -⟩ := idx_facts t
  show V m c main_arg5 (((cfg0.win 4).blk t).view.emb (ix1 j)) = _
  refine congrArg (V m c main_arg5) (funext fun a => Fin.ext ?_)
  match a with
  | ⟨0, _⟩ => show win0_4.index t (0 : Fin 1) * 1024 + 1 * j.val = n.val; omega

/-- The bank positions' block at point `t` is rows `1024·t + j`. -/
theorem blk5 (c : Dev nD) (t : Fin cfg0.N) (j : Fin 1024) (k : Fin 2) (n : Fin 131072) (hn : n.val = 1024 * t.val + j.val) :
    iblk m c 5 t (ix2 j k) = V m c main_v10 (ix2 n k) := by
  obtain ⟨-, -, -, -, -, -, -, -, e0, e1, -⟩ := idx_facts t
  show V m c main_v10 (((cfg0.win 5).blk t).view.emb (ix2 j k)) = _
  refine congrArg (V m c main_v10) (funext fun a => Fin.ext ?_)
  match a with
  | ⟨0, _⟩ => show win0_5.index t (0 : Fin 2) * 1024 + 1 * j.val = n.val; omega
  | ⟨1, _⟩ => show win0_5.index t (1 : Fin 2) * 2 + 1 * k.val = k.val; omega

end Cert.KernelIdeal.Blocks

end
-- ==== Proof.KernelFold.lean ====
/-
  The accumulator after each grid point.

  With the blocks read at their entries, one point's accumulating store adds to the accumulator, at query row `b`, the
  tile's contribution `tile t b`: the terms of `b` against bank rows `1024·t … 1024·t + 1023`. The first point starts from
  the zeros it has just stored, every later point from what the point before left; so after point `n` the accumulator
  holds zero plus the contributions of tiles `0 … n`, added in grid order.
-/
import proofs.«103643_j59614146068755_1_alg».proof.Proof.KernelPay
import proofs.«103643_j59614146068755_1_alg».proof.Proof.KernelPieces
import proofs.«103643_j59614146068755_1_alg».proof.Proof.KernelBlocks
import proofs.«103643_j59614146068755_1_alg».proof.Proof.Gen.KernelIdeal.Value

noncomputable section

open scoped BigOperators

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- What tile `s` contributes to query row `b`, from the arrays as the region finds them. -/
def tile (c : Dev nD) (s : Fin 128) (b : Fin 512) : EReal :=
  Cert.Spec.tileSum (V m c main_v2) (V m c main_arg1) (V m c main_arg2) (V m c main_arg5) (V m c main_v6) (V m c main_v10) s b

/-- One point's accumulating store, at row `b`: what the accumulator held plus the point's tile. -/
theorem step_apply (c : Dev nD) (t : Fin cfg0.N) (s : Fin 128) (hs : s.val = t.val) (acc : Vec Ideal S512 .f32) (b : Fin 512) :
    Pieces.step (iblk m c 0 t) (iblk m c 1 t) (iblk m c 2 t) (iblk m c 3 t) (iblk m c 4 t) (iblk m c 5 t) acc (ix1 b)
      = acc (ix1 b) + tile m c s b := by
  unfold tile Cert.Spec.tileSum
  refine (Cell.pay_apply (iblk m c 0 t) (iblk m c 1 t) (iblk m c 2 t) (iblk m c 3 t) (iblk m c 4 t) (iblk m c 5 t) acc b).trans ?_
  refine congrArg (fun z : EReal => acc (ix1 b) + z) (Finset.sum_congr rfl fun j _ => ?_)
  have hn : (Cert.Spec.row s j).val = 1024 * t.val + j.val := by
    show 1024 * s.val + j.val = _
    rw [hs]
  have e0 : (fun k => iblk m c 0 t (ix2 b k)) = fun k => V m c main_v2 (ix2 b k) := funext fun k => Blocks.blk0 m c t b k
  have e1 : (fun k => iblk m c 1 t (ix2 j k)) = fun k => V m c main_arg1 (ix2 (Cert.Spec.row s j) k) :=
    funext fun k => Blocks.blk1 m c t j k _ hn
  have e3 : (fun k => iblk m c 3 t (ix2 b k)) = fun k => V m c main_v6 (ix2 b k) := funext fun k => Blocks.blk3 m c t b k
  have e5 : (fun k => iblk m c 5 t (ix2 j k)) = fun k => V m c main_v10 (ix2 (Cert.Spec.row s j) k) :=
    funext fun k => Blocks.blk5 m c t j k _ hn
  rw [e0, e1, e3, e5, Blocks.blk2 m c t b, Blocks.blk4 m c t j _ hn]

/-- Tile `n`'s contribution as a function of every natural number (zero past the grid, where it is never used). -/
def addend (c : Dev nD) (n : ℕ) (i : S512.Idx) : EReal := if h : n < 128 then tile m c ⟨n, h⟩ (i 0) else 0

/-- The first point leaves zero plus tile 0. -/
theorem first_point (c : Dev nD) (h : 0 < cfg0.N) (i : S512.Idx) :
    Value.scAt0_0 m c 0 h (VS0_0.read (Elt Ideal) VS0_0.junk) i = 0 + addend m c 0 i := by
  obtain ⟨b, rfl⟩ : ∃ b : Fin 512, i = ix1 b := ⟨i 0, eq_ix1 i⟩
  unfold Value.scAt0_0
  rw [dif_pos (Nat.zero_mod 128), dif_neg (by decide : ¬0 % 128 = 127), Pieces.scratch_A,
    step_apply m c ⟨0, h⟩ 0 rfl, Cell.zero_apply]
  unfold addend
  rw [dif_pos (by decide : 0 < 128)]
  rfl

/-- Every later point adds its tile to what the point before left. -/
theorem later_point (c : Dev nD) (n : ℕ) (h : n < cfg0.N) (acc : Vec Ideal S512 .f32) (i : S512.Idx) (hpos : 0 < n)
    (hlt : n < 128) : Value.scAt0_0 m c n h acc i = acc i + addend m c n i := by
  obtain ⟨b, rfl⟩ : ∃ b : Fin 512, i = ix1 b := ⟨i 0, eq_ix1 i⟩
  have h0 : ¬n % 128 = 0 := by omega
  unfold Value.scAt0_0
  rw [dif_neg h0]
  by_cases h1 : n % 128 = 127
  · rw [dif_pos h1, Pieces.scratch_C, step_apply m c ⟨n, h⟩ ⟨n, hlt⟩ rfl]
    unfold addend
    rw [dif_pos hlt]
  · rw [dif_neg h1, Pieces.scratch_B, step_apply m c ⟨n, h⟩ ⟨n, hlt⟩ rfl]
    unfold addend
    rw [dif_pos hlt]

/-- After point `n` the accumulator holds zero plus the contributions of tiles `0 … n`. -/
theorem scratch_after (c : Dev nD) (n : ℕ) (hn : n < cfg0.N) (i : S512.Idx) :
    (outsAt0 m c n hn).2 i = 0 + ∑ s ∈ Finset.range (n + 1), addend m c s i := by
  have hN : n < 128 := lt_of_lt_of_eq hn (show cfg0.N = 128 from N_0)
  rw [Value.soutsAt0_0_sweep m c n hn]
  have key := Pipeline.accAt_add_apply (N := cfg0.N)
    (fun k h => Value.scAt0_0 m c k h (VS0_0.read (Elt Ideal) VS0_0.junk)) (Value.scAt0_0 m c)
    (fun _ => (0 : EReal)) (addend m c) 0 127
    (fun h i => first_point m c h i)
    (fun k h acc i hk hk' => later_point m c k h acc i hk (by omega))
    n (by omega) (by omega) i
  simpa only [Nat.zero_add] using key

end Cert.KernelIdeal.Fold

end
-- ==== Proof.KernelFinal.lean ====
/-
  The output array after the run.

  The output block is written back once, after the last grid point, where the body has copied the accumulator into
  it; the block is the whole 512-entry array. So the array ends holding what the accumulator holds after point 127:
  zero plus the contributions of all 128 tiles. With the positions the conversions of integer arrays, that is the
  specification's total: the tiles partition the bank's rows, and the two spellings of the squared distance agree.
-/
import proofs.«103643_j59614146068755_1_alg».proof.Proof.KernelFold

noncomputable section

open scoped BigOperators

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Zero plus all 128 tiles' contributions, as contents of the result array. -/
def result (c : Dev nD) : Buf (Elt Ideal) ((c : Thread nD τ).loc main_v11) :=
  fun i => 0 + ∑ s ∈ Finset.range 128, Fold.addend m c s i

/-- The last grid point. -/
def tLast : Fin cfg0.N := ⟨127, by rw [show cfg0.N = 128 from N_0]; decide⟩

/-- At the last point the output block holds what the accumulator holds: all the tiles. -/
theorem last_out (c : Dev nD) (t : Fin cfg0.N) (h1 : t.val % 128 = 127) :
    (outsAt0 m c t.val t.isLt).1 = result m c := by
  have hN : t.val < 128 := lt_of_lt_of_eq t.isLt (show cfg0.N = 128 from N_0)
  have h0 : ¬t.val % 128 = 0 := by omega
  have ht : t.val = 127 := by omega
  have e : (outsAt0 m c t.val t.isLt).1 = (outsAt0 m c t.val t.isLt).2 := by
    rw [outsAt0_C m c t h0 h1]
    dsimp only
    rw [Pieces.out_C, Pieces.scratch_C]
  rw [e]
  funext i
  rw [Fold.scratch_after m c t.val t.isLt i]
  show 0 + ∑ s ∈ Finset.range (t.val + 1), Fold.addend m c s i = 0 + ∑ s ∈ Finset.range 128, Fold.addend m c s i
  rw [ht]

/-- The one write-back writes the whole array. -/
theorem flushed_eq (c : Dev nD) (t : Fin cfg0.N) (hf : (cfg0.win 6).flush t = true) :
    (dats m 0 c).flushed 6 t = ((cfg0.win 6).blk t).view.read (Elt Ideal) (result m c) := by
  have h1 := (flush0_6 t).mp hf
  have hz' : (fun a => win0_6.index t a * main_v11.ty.shape.size a) = fun _ => 0 := funext fun a => by
    obtain ⟨-, -, -, -, -, -, -, -, -, -, e6⟩ := Blocks.idx_facts t
    match a with
    | ⟨0, _⟩ => show win0_6.index t (0 : Fin 1) * 512 = 0; omega
  show (cfg0.win 6).cut (grid0.coords t) ((dats m 0 c).after 6 t) = _
  rw [after0_6, last_out m c t h1]
  exact (Memref.read_access_unit_zero (Elt Ideal) main_v11 hz' (fun a => by rw [congrFun hz' a]; simp) (result m c)).symm

/-- So the result array ends holding all the tiles' contributions. -/
theorem final (c : Dev nD) : (dats m 0 c).arrAt 6 cfg0.N = result m c :=
  (dats m 0 c).arrAt_eq_of_cover 6 (result m c) (flushed_eq m c) fun i =>
    ⟨tLast, (flush0_6 tLast).mpr rfl, by
      obtain ⟨-, -, -, -, -, -, -, -, -, -, e6⟩ := Blocks.idx_facts tLast
      show i ∈ ((View.whole main_v11).slice (win0_6.rect tLast)).set
      rw [View.set_slice_whole, Rect.mem_set_unit]
      intro a
      have h0 : (i 0 : Nat) < 512 := (i 0).isLt
      match a with
      | ⟨0, _⟩ =>
        show win0_6.index tLast (0 : Fin 1) * 512 ≤ (i 0 : Nat) ∧ (i 0 : Nat) < win0_6.index tLast (0 : Fin 1) * 512 + 512
        omega⟩

/-- With the positions the conversions of integer arrays, the result at row `b` is the specification's total. -/
theorem result_apply (c : Dev nD) (CQi : IVec S512x2 32) (CBi : IVec S131072x2 32)
    (hq : (V m c main_v6 : S512x2.Idx → EReal) = sitofp (F := Ideal) .f32 CQi)
    (hb : (V m c main_v10 : S131072x2.Idx → EReal) = sitofp (F := Ideal) .f32 CBi) (b : Fin 512) :
    result m c (ix1 b)
      = Cert.Spec.total (V m c main_v2) (V m c main_arg1) (V m c main_arg2) (V m c main_arg5) CQi CBi b := by
  unfold result Fold.addend Fold.tile
  rw [hq, hb]
  exact Cert.Spec.tiles_total (V m c main_v2) (V m c main_arg1) (V m c main_arg2) (V m c main_arg5) CQi CBi b

/-- The run, read: the result array at all the tiles' contributions, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Final

end
-- ==== Proof.KernelHost.lean ====
/-
  The three arrays the host prepares before the region.

  Before the kernel is launched the host normalizes the queries (each row divided by its Euclidean norm) and builds the
  two position arrays: the x and y coordinates set side by side as integers, then converted to floats. These are the
  same operations, on the same arguments, as the reference's own first stages; each array the region finds is stated
  here as that stage of the arguments.
-/
import proofs.«103643_j59614146068755_1_alg».proof.Proof.Gen.KernelIdeal.Frame
import proofs.«103643_j59614146068755_1_alg».proof.Proof.RefRead
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The region finds the normalized queries. -/
theorem V_qn (c : Dev nD) :
    (V m c main_v2 : S512x256.Idx → EReal) = Cert.ReferenceIdeal.ReadP.val_main_v2 (F := Ideal) (m ((c : Thread nD τ).loc main_arg0)) := by
  dsimp only [Gen.V]
  simp only [Gen.hostOps0, Gen.hostOps0_1, List.flatten_cons, List.flatten_nil, List.append_nil, List.cons_append,
    List.nil_append]
  after_results
  rfl

/-- The region finds the query positions: the conversion of the two integer coordinate arrays set side by side. -/
theorem V_cq (c : Dev nD) :
    (V m c main_v6 : S512x2.Idx → EReal)
      = sitofp (F := Ideal) .f32 (Cert.ReferenceIdeal.ReadP.val_main_v14 (F := Ideal) (m ((c : Thread nD τ).loc main_arg3)) (m ((c : Thread nD τ).loc main_arg4))) := by
  dsimp only [Gen.V]
  simp only [Gen.hostOps0, Gen.hostOps0_1, List.flatten_cons, List.flatten_nil, List.append_nil, List.cons_append,
    List.nil_append]
  after_results
  rfl

/-- The region finds the bank positions, likewise. -/
theorem V_cb (c : Dev nD) :
    (V m c main_v10 : S131072x2.Idx → EReal)
      = sitofp (F := Ideal) .f32 (Cert.ReferenceIdeal.ReadP.val_main_v18 (F := Ideal) (m ((c : Thread nD τ).loc main_arg6)) (m ((c : Thread nD τ).loc main_arg7))) := by
  dsimp only [Gen.V]
  simp only [Gen.hostOps0, Gen.hostOps0_1, List.flatten_cons, List.flatten_nil, List.append_nil, List.cons_append,
    List.nil_append]
  after_results
  rfl

end Cert.KernelIdeal.HostSide

end
-- ==== Proof.RefValue.lean ====
/-
  The reference's result, read at an entry, is the specification's total.

  The reference forms every array over the whole [512, 131072] table: the similarity `exp (⟨qn_b, m_n⟩ / 0.2)` from a
  contraction over the 256 features, the bag agreement from two broadcasts, the squared distance as
  `(0 + |a_b|²) + (0 + |c_n|²) - Σ_k (2·a_bk)·c_nk` with the positions the conversions of the integer coordinates, the
  mask and the select; its result at `b` is zero plus the sum over the bank's rows. Each operation reads its operands
  at one entry (or is a sum over one axis), so entry `(b, n)` of the masked table is the specification's term of `b`
  and `n` in its second spelling.
-/
import proofs.«103643_j59614146068755_1_alg».proof.Proof.RefRead
import proofs.«103643_j59614146068755_1_alg».proof.Proof.Spec

noncomputable section

open scoped BigOperators

namespace Cert.ReferenceIdeal.RefValue

open Cert.ReferenceIdeal Cert.ReferenceIdeal.ReadP Idealize.ShloMosaic Idealize.ShloMosaic.ValueIdx

/-! ## The operations' index maps at `(b, n)` -/

section Idx
variable (b : Fin 512) (n : Fin 131072) (q : Fin 2) (k : Fin 256)

theorem i41 : idx_main_v41 (ix1 b) n = ix2 b n := funext fun a => Fin.ext (by match a with | ⟨0, _⟩ => rfl | ⟨1, _⟩ => rfl)
theorem i26 : idx_main_v26 (ix2 b n) = ix2 b (0 : Fin 1) := funext fun a => Fin.ext (by match a with | ⟨0, _⟩ => rfl | ⟨1, _⟩ => rfl)
theorem i22 : idx_main_v22 (ix2 b (0 : Fin 1)) = ix1 b := funext fun a => Fin.ext (by match a with | ⟨0, _⟩ => rfl)
theorem i21 : idx_main_v21 (ix1 b) q = ix2 b q := funext fun a => Fin.ext (by match a with | ⟨0, _⟩ => rfl | ⟨1, _⟩ => rfl)
theorem i27 : idx_main_v27 (ix2 b n) = ix2 (0 : Fin 1) n := funext fun a => Fin.ext (by match a with | ⟨0, _⟩ => rfl | ⟨1, _⟩ => rfl)
theorem i25 : idx_main_v25 (ix2 (0 : Fin 1) n) = ix1 n := funext fun a => Fin.ext (by match a with | ⟨0, _⟩ => rfl)
theorem i24 : idx_main_v24 (ix1 n) q = ix2 n q := funext fun a => Fin.ext (by match a with | ⟨0, _⟩ => rfl | ⟨1, _⟩ => rfl)
theorem l32 : lidx_main_v32 (ix2 b n) q = ix2 b q := funext fun a => Fin.ext (by match a with | ⟨0, _⟩ => rfl | ⟨1, _⟩ => rfl)
theorem r32 : ridx_main_v32 (ix2 b n) q = ix2 q n := funext fun a => Fin.ext (by match a with | ⟨0, _⟩ => rfl | ⟨1, _⟩ => rfl)
theorem i31 : idx_main_v31 (ix2 q n) = ix2 n q := funext fun a => Fin.ext (by match a with | ⟨0, _⟩ => rfl | ⟨1, _⟩ => rfl)
theorem i9 : idx_main_v9 (ix2 b n) = ix2 b (0 : Fin 1) := funext fun a => Fin.ext (by match a with | ⟨0, _⟩ => rfl | ⟨1, _⟩ => rfl)
theorem i7 : idx_main_v7 (ix2 b (0 : Fin 1)) = ix1 b := funext fun a => Fin.ext (by match a with | ⟨0, _⟩ => rfl)
theorem i10 : idx_main_v10 (ix2 b n) = ix2 (0 : Fin 1) n := funext fun a => Fin.ext (by match a with | ⟨0, _⟩ => rfl | ⟨1, _⟩ => rfl)
theorem i8 : idx_main_v8 (ix2 (0 : Fin 1) n) = ix1 n := funext fun a => Fin.ext (by match a with | ⟨0, _⟩ => rfl)
theorem l3 : lidx_main_v3 (ix2 b n) k = ix2 b k := funext fun a => Fin.ext (by match a with | ⟨0, _⟩ => rfl | ⟨1, _⟩ => rfl)
theorem r3 : ridx_main_v3 (ix2 b n) k = ix2 n k := funext fun a => Fin.ext (by match a with | ⟨0, _⟩ => rfl | ⟨1, _⟩ => rfl)

end Idx

/-! ## The masked table at `(b, n)`, and the result at `b` -/

/-- Entry `(b, n)` of the masked similarity table is the term of query row `b` and bank row `n`. -/
theorem cell_apply (x0 : (⟨S512x256, .f32⟩ : BufTy).Contents (Elt Ideal)) (x1 : (⟨S131072x256, .f32⟩ : BufTy).Contents (Elt Ideal)) (x2 x3 x4 : (⟨S512, .i32⟩ : BufTy).Contents (Elt Ideal)) (x5 x6 x7 : (⟨S131072, .i32⟩ : BufTy).Contents (Elt Ideal)) (b : Fin 512) (n : Fin 131072) :
    val_main_v40 (F := Ideal) x0 x1 x2 x3 x4 x5 x6 x7 (ix2 b n)
      = Cert.Spec.cellR (fun k => val_main_v2 (F := Ideal) x0 (ix2 b k)) (fun k => x1 (ix2 n k)) (x2 (ix1 b)) (x5 (ix1 n))
          (fun q => (((val_main_v14 (F := Ideal) x3 x4 (ix2 b q)).toInt : ℝ) : EReal))
          (fun q => (((val_main_v18 (F := Ideal) x6 x7 (ix2 n q)).toInt : ℝ) : EReal)) := by
  rw [val_main_v40_apply, val_main_v39_apply, val_main_v38_apply, val_main_v37_apply, val_main_v35_apply, val_main_v33_apply,
    val_main_v28_apply, val_main_v26_apply, val_main_v27_apply, val_main_v32_apply, val_main_v11_apply, val_main_v9_apply,
    val_main_v10_apply, val_main_v6_apply, val_main_v5_apply, val_main_v3_apply, val_main_v34_apply, val_main_cst_3_apply,
    val_main_v36_apply, val_main_cst_4_apply, val_main_call1_v1_apply, val_main_call1_v0_apply, val_main_cst_5_apply,
    val_main_v4_apply, val_main_cst_apply]
  rw [i26, i27, i9, i10, val_main_v22_apply, val_main_v25_apply, val_main_v7_apply, val_main_v8_apply, i22, i25, i7, i8,
    val_main_v21_apply, val_main_v24_apply, val_main_cst_0_apply, val_main_cst_1_apply]
  simp only [l32, r32, l3, r3, i21, i24, val_main_v30_apply, val_main_v31_apply, i31, val_main_v20_apply, val_main_v23_apply,
    val_main_v15_apply, val_main_v19_apply, val_main_v29_apply, val_main_cst_2_apply]
  rfl

/-- The reference's result at `b`: the specification's total, over the normalized queries and the integer positions the
    reference itself forms. -/
theorem total_apply (x0 : (⟨S512x256, .f32⟩ : BufTy).Contents (Elt Ideal)) (x1 : (⟨S131072x256, .f32⟩ : BufTy).Contents (Elt Ideal)) (x2 x3 x4 : (⟨S512, .i32⟩ : BufTy).Contents (Elt Ideal)) (x5 x6 x7 : (⟨S131072, .i32⟩ : BufTy).Contents (Elt Ideal)) (b : Fin 512) :
    val_main_v41 (F := Ideal) x0 x1 x2 x3 x4 x5 x6 x7 (ix1 b)
      = Cert.Spec.total (val_main_v2 (F := Ideal) x0) x1 x2 x5 (val_main_v14 (F := Ideal) x3 x4) (val_main_v18 (F := Ideal) x6 x7) b := by
  rw [val_main_v41_apply, val_main_cst_6_apply]
  unfold Cert.Spec.total
  refine congrArg (fun z : EReal => Ideal.ofBits .f32 0x00000000#32 + z) (Finset.sum_congr rfl fun (n : Fin 131072) _ => ?_)
  rw [i41]
  exact cell_apply x0 x1 x2 x3 x4 x5 x6 x7 b n

end Cert.ReferenceIdeal.RefValue

end
-- ==== Proof.lean ====
/-
  The kernel and its reference compute one function on the extended reals.

  For 512 query rows and a bank of 131072 rows both programs return, at query row `b`,

      Σ_n [bag b = bag n ∧ 0 < d²(b, n) < 4] · exp (⟨q_b/‖q_b‖, m_n⟩ / 0.2),

  `d²` the squared distance of the two rows' integer grid positions. The kernel visits the bank in 128 tiles of 1024
  rows, adds each tile's partial sum into an accumulator that starts at zero, and writes the accumulator out after the
  last tile; the reference forms the whole [512, 131072] table and sums its rows. Over the extended reals a sum may be
  regrouped freely, so the accumulated tiles are the one sum. The two programs spell `d²` differently —
  `|a|² + |c|² - 2·(a₀c₀ + a₁c₁)` against `(0 + |a|²) + (0 + |c|²) - Σ_k (2·a_k)·c_k` — and these agree because positions
  are integers converted to floats, hence real, where multiplication distributes over addition. Nothing else differs:
  the normalization of the queries and the construction of the positions are the same host operations on both sides,
  the matrix product into a zero accumulator and the contraction are the same sum over the 256 features, and the
  temperature `0.2` is the same float divided by on both sides. No finiteness of the inputs is used.

  The three frames are the generated ones (the reference's is its run with the result dropped); the idealization
  rewrote nothing, so there is nothing to preserve.
-/
import proofs.«103643_j59614146068755_1_alg».proof.Defs
import proofs.«103643_j59614146068755_1_alg».proof.Proof.Gen.Kernel
import proofs.«103643_j59614146068755_1_alg».proof.Proof.Gen.Kernel.Skeleton
import proofs.«103643_j59614146068755_1_alg».proof.Proof.Gen.Kernel.Launch
import proofs.«103643_j59614146068755_1_alg».proof.Proof.Gen.Kernel.Points
import proofs.«103643_j59614146068755_1_alg».proof.Proof.Gen.Kernel.Frame
import proofs.«103643_j59614146068755_1_alg».proof.Proof.Gen.KernelIdeal
import proofs.«103643_j59614146068755_1_alg».proof.Proof.Gen.KernelIdeal.Skeleton
import proofs.«103643_j59614146068755_1_alg».proof.Proof.Gen.KernelIdeal.Launch
import proofs.«103643_j59614146068755_1_alg».proof.Proof.Gen.KernelIdeal.Points
import proofs.«103643_j59614146068755_1_alg».proof.Proof.Gen.KernelIdeal.Frame
import proofs.«103643_j59614146068755_1_alg».proof.Proof.Gen.ReferenceIdeal
import proofs.«103643_j59614146068755_1_alg».proof.Proof.Gen.Pre_finite_inputs
import proofs.«103643_j59614146068755_1_alg».proof.Proof.Gen.KernelIdeal.Value
import proofs.«103643_j59614146068755_1_alg».proof.Proof.KernelFinal
import proofs.«103643_j59614146068755_1_alg».proof.Proof.KernelHost
import proofs.«103643_j59614146068755_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result array and the reference's hold the same 512 numbers: at row `b` both are the specification's
    total over the same normalized queries, bank, bags and integer positions. -/
theorem results_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v41 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
      = Cert.KernelIdeal.Final.result m c := by
  funext i
  obtain ⟨b, rfl⟩ : ∃ b : Fin 512, i = ix1 b := ⟨i 0, eq_ix1 i⟩
  rw [Cert.ReferenceIdeal.RefValue.total_apply,
    Cert.KernelIdeal.Final.result_apply m c _ _ (Cert.KernelIdeal.HostSide.V_cq m c) (Cert.KernelIdeal.HostSide.V_cb m c) b,
    Cert.KernelIdeal.HostSide.V_qn m c, Cert.KernelIdeal.Gen.V_main_arg1 m c, Cert.KernelIdeal.Gen.V_main_arg2 m c,
    Cert.KernelIdeal.Gen.V_main_arg5 m c]

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.ValueP.run (F := Ideal) m ρ)
  · -- both runs end, the kernel's result array at all the tiles' contributions, the reference's at the same numbers
    intro m ρ m' ρ' _ hagree
    refine ⟨fun c => Cert.KernelIdeal.Final.result m c, Cert.KernelIdeal.Final.run m ρ, ?_⟩
    refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.ReadP.val_main_v41_eq, a0, a1, a2, a3, a4, a5, a6, a7]
    exact results_eq m c⟩

end Cert.Proof

end
